-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048x2048 : Shape := ⟨3, ![2, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x512x2048 : Shape := ⟨3, ![1, 512, 2048]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i1⟩
  | .hbm, ⟨4, _⟩ => ⟨S2x2048x2048, .i32⟩
  | .hbm, ⟨5, _⟩ => ⟨S2x16x2048x64, .f32⟩
  | .hbm, ⟨6, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S2x2048x2048.size a
  hwx0_3 : ∀ i : grid0.Coords, EltTy.bits .i32 = 32 ∨ (Rect.block (s := S2x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2x1x2048x2048, .i1⟩
  | .hbm, ⟨9, _⟩ => ⟨S_, .f32⟩
  | .hbm, ⟨10, _⟩ => ⟨S2x16x2048x2048, .i1⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S_, .f32⟩
  | .hbm, ⟨16, _⟩ => ⟨S2x16x2048, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibMaskedRow.lean ====
/-
  ONE QUERY ROW OF MASKED ATTENTION over the extended reals, for any row length, and the laws that join two
  spellings of it. Depends on the library only.

  Definitions: `negBig` (the masking value -10^9, the f32 pattern 0xCE6E6B28) and `negInf` (the pattern of -inf, from
  which a row maximum is folded); `maskedRow mk s` (the scores `s` with `negBig` where the mask bit is set);
  `rowMax f` (the fold of max from `negInf`); `softmaxRow f c` (exp (f c - rowMax f) over the sum of those);
  `indicator b` (a mask bit widened to a word and read as the number 1 or 0).

  Laws:
    * `ofBits_zero`, `ofBits_eight`, `ofBits_eighth`, `ofBits_negBig`: what the patterns of 0.0, 8.0, 0.125 and -10^9
      denote; `div_eight`: a quotient by 8.0 is the product with 0.125 on every extended real;
    * `max_negInf_rowMax`: a maximum folded from an initial value, taken again against that value, is itself;
    * `cmpi_ne_zero_setWidth`: a mask bit widened to a word and compared with zero is the bit;
      `indicator_one`, `indicator_zero`;
    * `coe_sum`: a finite sum of reals read in the extended reals is the sum of the readings; `coe_mul_sum`: a real
      factor goes into a finite sum of real numbers;
    * `value_split`: the scores with ZERO where masked, times the values, plus -10^9 times the mask's own product with
      the values, is the masked row's product with the values. Term by term this needs nothing; pulling the factor
      -10^9 into the mask's sum is the distributive law, which on the extended reals holds because the values and
      -10^9 are real numbers.
-/
import Idealize.ShloMosaic.PureOps.Ideal
import Idealize.ShloMosaic.PureOps.Ideal.Laws
import Idealize.ShloMosaic.Lib.ValueIdx

noncomputable section

namespace Cert.Attention

open Idealize.ShloMosaic

/-! ## The float literals -/

/-- The pattern of `0.0` denotes `0`. -/
theorem ofBits_zero : Ideal.ofBits .f32 0x00000000#32 = 0 := by
  simp [Ideal.ofBits, Ideal.ieee]

/-- The pattern of `8.0` denotes the real `8`. -/
theorem ofBits_eight : Ideal.ofBits .f32 0x41000000#32 = ((8 : ℝ) : EReal) := by
  simp [Ideal.ofBits, Ideal.ieee, -EReal.coe_mul]; norm_num

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The masking value's pattern denotes the real `-10^9`. -/
theorem ofBits_negBig : Ideal.ofBits .f32 0xCE6E6B28#32 = ((-1000000000 : ℝ) : EReal) := by
  simp [Ideal.ofBits, Ideal.ieee, -EReal.coe_mul]; norm_num

/-- Dividing by `8.0` is multiplying by `0.125`, on every extended real. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

/-! ## The row -/

variable {n : Nat}

/-- The masking value `-10^9`, as both programs spell it. -/
abbrev negBig : EReal := Ideal.ofBits .f32 0xCE6E6B28#32

/-- The value a row maximum is folded from (the pattern of `-inf`). -/
abbrev negInf : EReal := Ideal.ofBits .f32 0xFF800000#32

/-- A score row with `-10^9` where the mask bit is set. -/
def maskedRow (mk : Fin n → BitVec 1) (s : Fin n → EReal) : Fin n → EReal :=
  fun c => Scalar.select (mk c) negBig (s c)

/-- The maximum of a row, folded from `negInf`. -/
def rowMax (f : Fin n → EReal) : EReal := (Finset.univ : Finset (Fin n)).fold max negInf f

/-- The softmax of a row at a column: the exponential of the entry less the row maximum, over the sum of those. -/
def softmaxRow (f : Fin n → EReal) (c : Fin n) : EReal :=
  Ideal.div (Ideal.exp (f c - rowMax f)) (∑ c', Ideal.exp (f c' - rowMax f))

/-- The mask bit as the number 1 or 0: widened to a word, read signed. -/
def indicator (b : BitVec 1) : EReal := (((b.setWidth 32).toInt : ℝ) : EReal)

/-- The initial value is below the folded maximum, so taking the maximum with it again changes nothing. -/
theorem max_negInf_rowMax (f : Fin n → EReal) : max negInf (rowMax f) = rowMax f := by
  refine max_eq_right ?_
  unfold rowMax
  rw [Finset.le_fold_max]
  exact Or.inl le_rfl

/-- A bit widened to a word and compared with zero is the bit. -/
theorem cmpi_ne_zero_setWidth (b : BitVec 1) : IntOp.cmpi .ne (b.setWidth 32) (0#32 : BitVec 32) = b := by
  by_cases h : b = 1#1
  · subst h; decide
  · have h0 := ValueIdx.eq_zero_of_ne_one h; subst h0; decide

theorem indicator_one : indicator 1#1 = 1 := by
  unfold indicator
  have : (BitVec.setWidth 32 (1#1 : BitVec 1)).toInt = 1 := by decide
  rw [this]; simp

theorem indicator_zero : indicator 0#1 = 0 := by
  unfold indicator
  have : (BitVec.setWidth 32 (0#1 : BitVec 1)).toInt = 0 := by decide
  rw [this]; simp

/-- A finite sum of real numbers, read in the extended reals, is the sum of the readings. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A real factor goes into a finite sum of real numbers. -/
theorem coe_mul_sum (N : ℝ) (f : Fin n → EReal) (hf : ∀ c, ∃ r : ℝ, f c = r) :
    (N : EReal) * ∑ c, f c = ∑ c, (N : EReal) * f c := by
  choose g hg using hf
  simp only [hg]
  rw [← coe_sum, ← EReal.coe_mul, Finset.mul_sum, coe_sum]
  exact Finset.sum_congr rfl fun c _ => EReal.coe_mul _ _

/-- THE VALUE PRODUCT, SPLIT BY THE MASK: the scores with zero where masked, times the values, plus `-10^9` times
    the mask's own product with the values, is the masked row's product with the values — when the values are real. -/
theorem value_split (mk : Fin n → BitVec 1) (s v : Fin n → EReal) (hv : ∀ c, ∃ r : ℝ, v c = r) :
    (∑ c, Scalar.select (mk c) (0 : EReal) (s c) * v c) + negBig * ∑ c, indicator (mk c) * v c
      = ∑ c, maskedRow mk s c * v c := by
  have hind : ∀ c, ∃ r : ℝ, indicator (mk c) * v c = r := fun c => by
    obtain ⟨r, hr⟩ := hv c
    exact ⟨(((mk c).setWidth 32).toInt : ℝ) * r, by rw [hr]; unfold indicator; rw [← EReal.coe_mul]⟩
  rw [show negBig = ((-1000000000 : ℝ) : EReal) from ofBits_negBig, coe_mul_sum _ _ hind, ← Finset.sum_add_distrib]
  refine Finset.sum_congr rfl fun c _ => ?_
  unfold maskedRow
  rw [show negBig = ((-1000000000 : ℝ) : EReal) from ofBits_negBig]
  by_cases h : mk c = 1#1
  · rw [h, ValueIdx.select_one, ValueIdx.select_one, indicator_one, zero_mul, zero_add, one_mul]
  · rw [ValueIdx.eq_zero_of_ne_one h, ValueIdx.select_zero, ValueIdx.select_zero, indicator_zero, zero_mul, mul_zero, add_zero]

end Cert.Attention

end
-- ==== Proof.Spec.lean ====
/-
  Masked scaled dot-product attention over the argument arrays, index by index.
  For a batch b, a head h and a query row r, the score against key row c is the inner product of the query's row and
  the key's row, times 1/8; where the mask bit (b, r, c) is set the score is replaced by -10^9. The first result,
  at (b, h, r, e), is the product of that masked row with column e of the values; the second, at (b, h, r, c), is the
  softmax of the masked row at column c.
-/
import Idealize.ShloMosaic.Lib.ValueIdx
import proofs.«127966_j75771813036480_2_alg».proof.Proof.LibMaskedRow

noncomputable section

namespace Cert.Attention

open Idealize.ShloMosaic Idealize.ShloMosaic.ValueIdx

/-- The shape of the queries, keys, values and the first result. -/
abbrev Sqkv : Shape := ⟨4, ![2, 16, 2048, 64]⟩
/-- The shape of the mask. -/
abbrev Smask : Shape := ⟨3, ![2, 2048, 2048]⟩
/-- The shape of the attention weights. -/
abbrev Satt : Shape := ⟨4, ![2, 16, 2048, 2048]⟩

/-- The scaled scores of query row `(b, h, r)` against every key row. -/
def score (q k : Sqkv.Idx → EReal) (b : Fin 2) (h : Fin 16) (r : Fin 2048) : Fin 2048 → EReal :=
  fun c => (∑ e : Fin 64, q (ix4 b h r e) * k (ix4 b h c e)) * Ideal.ofBits .f32 0x3E000000#32

/-- The same row with `-10^9` where the mask is set. -/
def maskedScore (q k : Sqkv.Idx → EReal) (msk : Smask.Idx → BitVec 1) (b : Fin 2) (h : Fin 16) (r : Fin 2048) :
    Fin 2048 → EReal :=
  maskedRow (fun c => msk (ix3 b r c)) (score q k b h r)

/-- The masked scores' product with the values. -/
def output (q k v : Sqkv.Idx → EReal) (msk : Smask.Idx → BitVec 1) : Sqkv.Idx → EReal :=
  fun i => ∑ c : Fin 2048, maskedScore q k msk (i 0) (i 1) (i 2) c * v (ix4 (i 0) (i 1) c (i 3))

/-- The softmax of the masked scores along the key axis. -/
def attention (q k : Sqkv.Idx → EReal) (msk : Smask.Idx → BitVec 1) : Satt.Idx → EReal :=
  fun i => softmaxRow (maskedScore q k msk (i 0) (i 1) (i 2)) (i 3)

end Cert.Attention

end
-- ==== Proof.RefValue.lean ====
/-
  The reference program's two results are the attention of Proof/Spec.lean: read one operation at a time, its masked
  scores are the inner products over 8 with -10^9 where the mask is set (a quotient by 8 is the product with 1/8), its
  row maximum is the fold of max from -inf taken once more against -inf (which changes nothing), its softmax the
  exponentials of the differences over their sum from zero, and its first result the masked scores' product with the
  values.
-/
import proofs.«127966_j75771813036480_2_alg».proof.Proof.Gen.ReferenceIdeal.Read
import Idealize.ShloMosaic.PureOps.Reduce
import proofs.«127966_j75771813036480_2_alg».proof.Proof.Spec

noncomputable section

namespace Cert.Attention.Reference

open Cert.ReferenceIdeal Cert.ReferenceIdeal.Gen Cert.ReferenceIdeal.Read Cert.Attention
open Idealize.ShloMosaic Idealize.ShloMosaic.ValueIdx

variable (q k v : FVec Ideal S2x16x2048x64 .f32) (msk : IVec S2x2048x2048 1)

/-- The reference's masked scores at `(b, h, r, c)`. -/
theorem masked_apply (b : Fin 2) (h : Fin 16) (r c : Fin 2048) :
    val_main_v4 (F := Ideal) q k msk (ix4 b h r c) = maskedScore q k msk b h r c := by
  rw [val_main_v4_apply, val_main_call0_v0_apply, val_main_v3_apply, val_main_call0_v1_apply, val_main_cst_0_apply,
    val_main_v2_apply, val_main_v0_apply, val_main_v1_apply, val_main_cst_apply]
  have e3 : idx_main_v3 (idx_main_call0_v0 (ix4 b h r c)) = ix3 b r c :=
    funext fun a => Fin.ext (by match a with | ⟨0, _⟩ => rfl | ⟨1, _⟩ => rfl | ⟨2, _⟩ => rfl)
  have el : ∀ e : Fin 64, lidx_main_v0 (ix4 b h r c) e = ix4 b h r e := fun e =>
    funext fun a => Fin.ext (by match a with | ⟨0, _⟩ => rfl | ⟨1, _⟩ => rfl | ⟨2, _⟩ => rfl | ⟨3, _⟩ => rfl)
  have er : ∀ e : Fin 64, ridx_main_v0 (ix4 b h r c) e = ix4 b h c e := fun e =>
    funext fun a => Fin.ext (by match a with | ⟨0, _⟩ => rfl | ⟨1, _⟩ => rfl | ⟨2, _⟩ => rfl | ⟨3, _⟩ => rfl)
  simp only [e3, el, er, Ideal.hostDivf_def, Ideal.ofBits_def]
  rw [div_eight]
  rfl

/-- The same at any index. -/
theorem masked_apply' (j : S2x16x2048x2048.Idx) :
    val_main_v4 (F := Ideal) q k msk j = maskedScore q k msk (j 0) (j 1) (j 2) (j 3) := by
  conv_lhs => rw [eq_ix4 j]
  exact masked_apply q k msk (j 0) (j 1) (j 2) (j 3)

/-- The host's maximum over the last axis, folded from the pattern of -inf, is the row maximum. -/
theorem reduce_max_apply (f : S2x16x2048x2048.Idx → EReal) (b : Fin 2) (h : Fin 16) (r : Fin 2048) :
    Host.reduce (FloatOps.maximumf (F := Ideal) (φ := .f32)) f (constant (F := Ideal) S_ .f32 0xFF800000#32)
        reducesTo_S2x16x2048x2048_S2x16x2048_d3 h_S_ (ix3 b h r)
      = rowMax (fun c => f (ix4 b h r c)) := by
  rw [Host.reduce_eq_fold_single (FloatOps.maximumf (F := Ideal) (φ := .f32)) f _ reducesTo_S2x16x2048x2048_S2x16x2048_d3
    (by decide) h_S_ (ix3 b h r)]
  unfold rowMax
  refine congrArg (fun g => (Finset.univ : Finset (Fin 2048)).fold max negInf g) (funext fun c => congrArg f ?_)
  exact funext fun a => Fin.ext (by match a with | ⟨0, _⟩ => rfl | ⟨1, _⟩ => rfl | ⟨2, _⟩ => rfl | ⟨3, _⟩ => rfl)

/-- The reference's broadcast row maximum at `(b, h, r, c)`. -/
theorem rowmax_apply (b : Fin 2) (h : Fin 16) (r c : Fin 2048) :
    val_main_v9 (F := Ideal) q k msk (ix4 b h r c) = rowMax (maskedScore q k msk b h r) := by
  rw [val_main_v9_apply, val_main_v8_apply, val_main_v7_apply, val_main_v6_apply, val_main_cst_2_apply]
  have e : idx_main_v8 (idx_main_v9 (ix4 b h r c)) = ix3 b h r :=
    funext fun a => Fin.ext (by match a with | ⟨0, _⟩ => rfl | ⟨1, _⟩ => rfl | ⟨2, _⟩ => rfl)
  rw [e]
  unfold val_main_v5 val_main_cst_1
  rw [reduce_max_apply]
  simp only [masked_apply, Ideal.maximumf_def, Ideal.ofBits_def]
  exact max_negInf_rowMax _

/-- The reference's exponentials at `(b, h, r, c)`. -/
theorem exp_apply (b : Fin 2) (h : Fin 16) (r c : Fin 2048) :
    val_main_v11 (F := Ideal) q k msk (ix4 b h r c)
      = Ideal.exp (maskedScore q k msk b h r c - rowMax (maskedScore q k msk b h r)) := by
  rw [val_main_v11_apply, val_main_v10_apply, rowmax_apply, masked_apply]
  rfl

/-- THE SECOND RESULT of the reference is the attention weights. -/
theorem attention_eq : val_main_v15 (F := Ideal) q k msk = attention q k msk := by
  funext i
  obtain ⟨b, h, r, c, rfl⟩ : ∃ (b : Fin 2) (h : Fin 16) (r c : Fin 2048), i = ix4 b h r c := ⟨i 0, i 1, i 2, i 3, eq_ix4 i⟩
  rw [val_main_v15_apply, val_main_v14_apply, val_main_v13_apply, val_main_v12_apply, val_main_cst_3_apply, exp_apply]
  have e : idx_main_v13 (idx_main_v14 (ix4 b h r c)) = ix3 b h r :=
    funext fun a => Fin.ext (by match a with | ⟨0, _⟩ => rfl | ⟨1, _⟩ => rfl | ⟨2, _⟩ => rfl)
  have e' : ∀ c' : Fin 2048, idx_main_v12 (ix3 b h r) c' = ix4 b h r c' := fun c' =>
    funext fun a => Fin.ext (by match a with | ⟨0, _⟩ => rfl | ⟨1, _⟩ => rfl | ⟨2, _⟩ => rfl | ⟨3, _⟩ => rfl)
  rw [e]
  simp only [e', exp_apply, Ideal.hostDivf_def, Ideal.ofBits_def]
  rw [ofBits_zero, zero_add]
  rfl

/-- THE FIRST RESULT of the reference is the masked scores' product with the values. -/
theorem output_eq : val_main_v16 (F := Ideal) q k v msk = output q k v msk := by
  funext i
  obtain ⟨b, h, r, e, rfl⟩ : ∃ (b : Fin 2) (h : Fin 16) (r : Fin 2048) (e : Fin 64), i = ix4 b h r e := ⟨i 0, i 1, i 2, i 3, eq_ix4 i⟩
  rw [val_main_v16_apply]
  have el : ∀ c : Fin 2048, lidx_main_v16 (ix4 b h r e) c = ix4 b h r c := fun c =>
    funext fun a => Fin.ext (by match a with | ⟨0, _⟩ => rfl | ⟨1, _⟩ => rfl | ⟨2, _⟩ => rfl | ⟨3, _⟩ => rfl)
  have er : ∀ c : Fin 2048, ridx_main_v16 (ix4 b h r e) c = ix4 b h c e := fun c =>
    funext fun a => Fin.ext (by match a with | ⟨0, _⟩ => rfl | ⟨1, _⟩ => rfl | ⟨2, _⟩ => rfl | ⟨3, _⟩ => rfl)
  simp only [el, er, masked_apply]
  rfl

end Cert.Attention.Reference

end
-- ==== Proof.BlockValue.lean ====
/-
  What the kernel's body computes at one grid point, read at an index of its two result blocks, as functions of the
  blocks it loads: a [512, 64] block of query rows, the [2048, 64] keys and values of one batch and head, and a
  [512, 2048] block of mask words.
  The score of block row r against key row c is the inner product of the two rows times 1/8 (a matrix product into a
  zero accumulator is the plain sum; a change of float format is the identity); the mask bit is the word compared
  with zero. The attention block is the softmax of the masked row (the kept-dimension maxima and sums broadcast back
  along the row). The output block is the product of the scores, zero where masked, with the values, plus -10^9
  times the product of the mask, as the numbers 0 and 1, with the values.
-/
import proofs.«127966_j75771813036480_2_alg».proof.Proof.Gen.KernelIdeal.Skeleton
import Idealize.ShloMosaic.Lib.Pipeline.Value
import Idealize.ShloMosaic.Lib.ValueIdx
import Idealize.ShloMosaic.PureOps.Ideal.Laws
import proofs.«127966_j75771813036480_2_alg».proof.Proof.LibMaskedRow

noncomputable section

namespace Cert.Attention.Block

open Cert.KernelIdeal Cert.KernelIdeal.Gen Cert.Attention
open Idealize.ShloMosaic Idealize.ShloMosaic.ValueIdx

/-! ## The blocks' rows -/

/-- The scaled scores of block row `r` against every key row. -/
def blockScore (x0 : Vec Ideal S1x1x512x64 .f32) (x1 : Vec Ideal S1x1x2048x64 .f32) (r : Fin 512) : Fin 2048 → EReal :=
  fun c => (∑ e : Fin 64, x0 (ix4 0 0 r e) * x1 (ix4 0 0 c e)) * Ideal.ofBits .f32 0x3E000000#32

/-- The mask bits of block row `r`: the mask word compared with zero. -/
def blockBit (x3 : Vec Ideal S1x512x2048 .i32) (r : Fin 512) : Fin 2048 → BitVec 1 :=
  fun c => IntOp.cmpi .ne (x3 (ix3 0 r c)) (0#32 : BitVec 32)

/-! ## Layout: the unit leading axes dropped and restored, a column kept and broadcast -/

theorem castQ (x0 : Vec Ideal S1x1x512x64 .f32) (r : Fin 512) (e : Fin 64) :
    shapeCast S512x64 x0 shapeCasts_S1x1x512x64_S512x64 (ix2 r e) = x0 (ix4 0 0 r e) :=
  shapeCast_apply _ _ _ _ (by
    rw [Shape.rowMajor_val_four, Shape.rowMajor_val_two]
    show ((0 * 1 + 0) * 512 + r.val) * 64 + e.val = r.val * 64 + e.val; omega)

theorem castKV (x1 : Vec Ideal S1x1x2048x64 .f32) (c : Fin 2048) (e : Fin 64) :
    shapeCast S2048x64 x1 shapeCasts_S1x1x2048x64_S2048x64 (ix2 c e) = x1 (ix4 0 0 c e) :=
  shapeCast_apply _ _ _ _ (by
    rw [Shape.rowMajor_val_four, Shape.rowMajor_val_two]
    show ((0 * 1 + 0) * 2048 + c.val) * 64 + e.val = c.val * 64 + e.val; omega)

theorem castM (x3 : Vec Ideal S1x512x2048 .i32) (r : Fin 512) (c : Fin 2048) :
    shapeCast S512x2048 x3 shapeCasts_S1x512x2048_S512x2048 (ix2 r c) = x3 (ix3 0 r c) :=
  shapeCast_apply _ _ _ _ (by
    rw [Shape.rowMajor_val_three, Shape.rowMajor_val_two]
    show (0 * 512 + r.val) * 2048 + c.val = r.val * 2048 + c.val; omega)

theorem castOut (y : FVec Ideal S512x64 .f32) (r : Fin 512) (e : Fin 64) :
    shapeCast S1x1x512x64 y shapeCasts_S512x64_S1x1x512x64 (ix4 0 0 r e) = y (ix2 r e) :=
  shapeCast_apply _ _ _ _ (by
    rw [Shape.rowMajor_val_four, Shape.rowMajor_val_two]
    show r.val * 64 + e.val = ((0 * 1 + 0) * 512 + r.val) * 64 + e.val; omega)

theorem castAtt (y : FVec Ideal S512x2048 .f32) (r : Fin 512) (c : Fin 2048) :
    shapeCast S1x1x512x2048 y shapeCasts_S512x2048_S1x1x512x2048 (ix4 0 0 r c) = y (ix2 r c) :=
  shapeCast_apply _ _ _ _ (by
    rw [Shape.rowMajor_val_four, Shape.rowMajor_val_two]
    show r.val * 2048 + c.val = ((0 * 1 + 0) * 512 + r.val) * 2048 + c.val; omega)

/-- A per-row value kept as a column and broadcast along the row. -/
abbrev keep (m : FVec Ideal S512 .f32) : FVec Ideal S512x2048 .f32 :=
  broadcastTo S512x2048 (shapeCast S512x1 m shapeCasts_S512_S512x1) broadcasts_S512x1_S512x2048

theorem keep_apply (m : FVec Ideal S512 .f32) (r : Fin 512) (c : Fin 2048) : keep m (ix2 r c) = m (ix1 r) := by
  refine (broadcastTo_apply _ _ (ix2 r c) (ix2 r (0 : Fin 1)) (fun a => match a with
    | ⟨0, _⟩ => by show r.val = (if (512 : Nat) = 1 then 0 else r.val); rw [if_neg (by decide)]
    | ⟨1, _⟩ => by show 0 = (if (1 : Nat) = 1 then 0 else c.val); rw [if_pos rfl])).trans ?_
  exact shapeCast_apply _ _ (ix2 r (0 : Fin 1)) (ix1 r) (by
    rw [Shape.rowMajor_val_one, Shape.rowMajor_val_two]; show r.val = r.val * 1 + 0; omega)

/-! ## The reductions along a row -/

/-- The body's row maximum. -/
abbrev rowMaxV (f : FVec Ideal S512x2048 .f32) : FVec Ideal S512 .f32 :=
  multiReduction .maximumf [1] S512 f 0xFF800000#32 reduces_S512x2048_S512 (.inl rfl) rfl

/-- The body's row sum. -/
abbrev rowSumV (f : FVec Ideal S512x2048 .f32) : FVec Ideal S512 .f32 :=
  multiReduction .add [1] S512 f 0x00000000#32 reduces_S512x2048_S512 (.inl rfl) rfl

theorem rowMaxV_apply (f : FVec Ideal S512x2048 .f32) (r : Fin 512) : rowMaxV f (ix1 r) = rowMax (fun c => f (ix2 r c)) := by
  refine (Ideal.multiReduction_maximumf_single f 0xFF800000#32 reduces_S512x2048_S512 (.inl rfl) rfl (ix1 r)).trans ?_
  unfold rowMax
  refine congrArg (fun g => (Finset.univ : Finset (Fin 2048)).fold max negInf g) (funext fun c => congrArg f ?_)
  exact funext fun a => Fin.ext (by match a with | ⟨0, _⟩ => rfl | ⟨1, _⟩ => rfl)

theorem rowSumV_apply (f : FVec Ideal S512x2048 .f32) (r : Fin 512) : rowSumV f (ix1 r) = ∑ c : Fin 2048, f (ix2 r c) := by
  refine (Ideal.multiReduction_add_single f 0x00000000#32 reduces_S512x2048_S512 (.inl rfl) rfl (ix1 r)).trans ?_
  refine Finset.sum_congr rfl fun c _ => congrArg f ?_
  exact funext fun a => Fin.ext (by match a with | ⟨0, _⟩ => rfl | ⟨1, _⟩ => rfl)

/-- THE SOFTMAX OF A BLOCK, as the body spells it, at `(r, c)` is the softmax of row `r` at `c`. -/
theorem softmax_block (f : FVec Ideal S512x2048 .f32) (r : Fin 512) (c : Fin 2048) :
    divf (exp (subf f (keep (rowMaxV f)))) (keep (rowSumV (exp (subf f (keep (rowMaxV f)))))) (ix2 r c)
      = softmaxRow (fun c' => f (ix2 r c')) c := by
  have hm : ∀ c' : Fin 2048, keep (rowMaxV f) (ix2 r c') = rowMax (fun c'' => f (ix2 r c'')) :=
    fun c' => (keep_apply _ r c').trans (rowMaxV_apply f r)
  have he : ∀ c' : Fin 2048, exp (subf f (keep (rowMaxV f))) (ix2 r c')
      = Ideal.exp (f (ix2 r c') - rowMax (fun c'' => f (ix2 r c''))) := fun c' => by
    show Ideal.exp (f (ix2 r c') - keep (rowMaxV f) (ix2 r c')) = _
    rw [hm]
  show Ideal.div (exp (subf f (keep (rowMaxV f))) (ix2 r c)) (keep (rowSumV (exp (subf f (keep (rowMaxV f))))) (ix2 r c)) = _
  rw [he, keep_apply, rowSumV_apply]
  simp only [he]
  rfl

/-! ## The two matrix products -/

/-- The operands' indices of the score product: the left operand's row is the result's row, the right operand's row
    the result's column, both columns the contraction index. -/
theorem qk_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

theorem dot_qk (A : FVec Ideal S512x64 .bf16) (B : FVec Ideal S2048x64 .bf16) (r : Fin 512) (c : Fin 2048) :
    matmul dot_S512x64_S2048x64_S512x2048_1_1_0_0_n_n none A B (constant (F := Ideal) S512x2048 .f32 0x00000000#32) (ix2 r c)
      = ∑ e : Fin 64, A (ix2 r e) * B (ix2 c e) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun e _ => ?_
  have hk := ValueIdx.contrEquiv1_symm_val dot_S512x64_S2048x64_S512x2048_1_1_0_0_n_n 64 rfl rfl e
  have el : dot_S512x64_S2048x64_S512x2048_1_1_0_0_n_n.lhsIdx (ix2 r c) ((ValueIdx.contrEquiv1 dot_S512x64_S2048x64_S512x2048_1_1_0_0_n_n 64 rfl rfl).symm e) = ix2 r e :=
    funext fun a => Fin.ext (by
      match a with
      | ⟨0, _⟩ => exact qk_lhs0 _ _
      | ⟨1, _⟩ => exact (qk_lhs1 _ _).trans hk)
  have er : dot_S512x64_S2048x64_S512x2048_1_1_0_0_n_n.rhsIdx (ix2 r c) ((ValueIdx.contrEquiv1 dot_S512x64_S2048x64_S512x2048_1_1_0_0_n_n 64 rfl rfl).symm e) = ix2 c e :=
    funext fun a => Fin.ext (by
      match a with
      | ⟨0, _⟩ => exact qk_rhs0 _ _
      | ⟨1, _⟩ => exact (qk_rhs1 _ _).trans hk)
  rw [el, er]

/-- The operands' indices of the value products: the left operand's row is the result's row, the right operand's
    column the result's column, the left's column and the right's row the contraction index. -/
theorem sv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem sv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem sv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem sv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

theorem dot_sv (A : FVec Ideal S512x2048 .bf16) (B : FVec Ideal S2048x64 .bf16) (r : Fin 512) (e : Fin 64) :
    matmul dot_S512x2048_S2048x64_S512x64_1_0_0_1_n_n none A B (constant (F := Ideal) S512x64 .f32 0x00000000#32) (ix2 r e)
      = ∑ c : Fin 2048, A (ix2 r c) * B (ix2 c e) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun c _ => ?_
  have hk := ValueIdx.contrEquiv1_symm_val dot_S512x2048_S2048x64_S512x64_1_0_0_1_n_n 2048 rfl rfl c
  have el : dot_S512x2048_S2048x64_S512x64_1_0_0_1_n_n.lhsIdx (ix2 r e) ((ValueIdx.contrEquiv1 dot_S512x2048_S2048x64_S512x64_1_0_0_1_n_n 2048 rfl rfl).symm c) = ix2 r c :=
    funext fun a => Fin.ext (by
      match a with
      | ⟨0, _⟩ => exact sv_lhs0 _ _
      | ⟨1, _⟩ => exact (sv_lhs1 _ _).trans hk)
  have er : dot_S512x2048_S2048x64_S512x64_1_0_0_1_n_n.rhsIdx (ix2 r e) ((ValueIdx.contrEquiv1 dot_S512x2048_S2048x64_S512x64_1_0_0_1_n_n 2048 rfl rfl).symm c) = ix2 c e :=
    funext fun a => Fin.ext (by
      match a with
      | ⟨0, _⟩ => exact (sv_rhs0 _ _).trans hk
      | ⟨1, _⟩ => exact sv_rhs1 _ _)
  rw [el, er]

/-! ## The payloads at an index -/

/-- The scaled scores. -/
theorem score_apply (x0 : Vec Ideal S1x1x512x64 .f32) (x1 : Vec Ideal S1x1x2048x64 .f32) (r : Fin 512) (c : Fin 2048) :
    k0_pay4 x0 x1 (ix2 r c) = blockScore x0 x1 r c := by
  unfold k0_pay4 blockScore
  refine congrArg (· * Ideal.ofBits .f32 0x3E000000#32) ((dot_qk _ _ r c).trans ?_)
  exact Finset.sum_congr rfl fun e _ => congrArg₂ (· * ·) (castQ x0 r e) (castKV x1 c e)

/-- The mask bits. -/
theorem bit_apply (x3 : Vec Ideal S1x512x2048 .i32) (r : Fin 512) (c : Fin 2048) :
    k0_pay3 x3 (ix2 r c) = blockBit x3 r c := by
  unfold k0_pay3 blockBit
  exact congrArg (fun w => IntOp.cmpi .ne w (0#32 : BitVec 32)) (castM x3 r c)

/-- The values, as the second factor of the products. -/
theorem value_apply (x2 : Vec Ideal S1x1x2048x64 .f32) (c : Fin 2048) (e : Fin 64) :
    k0_pay2 x2 (ix2 c e) = x2 (ix4 0 0 c e) := by
  unfold k0_pay2
  exact castKV x2 c e

/-- THE ATTENTION BLOCK at `(r, c)`: the softmax of the masked row. -/
theorem attention_apply (x0 : Vec Ideal S1x1x512x64 .f32) (x1 : Vec Ideal S1x1x2048x64 .f32)
    (x3 : Vec Ideal S1x512x2048 .i32) (r : Fin 512) (c : Fin 2048) :
    k0_pay5 x0 x1 x3 (ix4 0 0 r c) = softmaxRow (maskedRow (blockBit x3 r) (blockScore x0 x1 r)) c := by
  unfold k0_pay5
  refine (castAtt _ r c).trans ?_
  refine (softmax_block (select (k0_pay3 x3) (broadcast S512x2048 (Scalar.ofBits (F := Ideal) .f32 0xCE6E6B28#32)) (k0_pay4 x0 x1)) r c).trans ?_
  refine congrArg (fun f => softmaxRow f c) (funext fun c' => ?_)
  show Scalar.select (k0_pay3 x3 (ix2 r c')) negBig (k0_pay4 x0 x1 (ix2 r c')) = _
  rw [bit_apply, score_apply]
  rfl

/-- THE OUTPUT BLOCK at `(r, e)`: the unmasked scores' product with the values plus `-10^9` times the mask's. -/
theorem output_apply (x0 : Vec Ideal S1x1x512x64 .f32) (x1 x2 : Vec Ideal S1x1x2048x64 .f32)
    (x3 : Vec Ideal S1x512x2048 .i32) (r : Fin 512) (e : Fin 64) :
    k0_pay1 (k0_pay2 x2) (k0_pay3 x3) (k0_pay4 x0 x1) (k0_pay6 (F := Ideal)) (ix4 0 0 r e)
      = (∑ c : Fin 2048, Scalar.select (blockBit x3 r c) (0 : EReal) (blockScore x0 x1 r c) * x2 (ix4 0 0 c e))
        + negBig * ∑ c : Fin 2048, indicator (blockBit x3 r c) * x2 (ix4 0 0 c e) := by
  unfold k0_pay1
  refine (castOut _ r e).trans ?_
  refine congrArg₂ (· + ·) ((dot_sv _ _ r e).trans ?_) (congrArg (negBig * ·) ((dot_sv _ _ r e).trans ?_))
  · refine Finset.sum_congr rfl fun c _ => congrArg₂ (· * ·) ?_ (value_apply x2 c e)
    show Scalar.select (k0_pay3 x3 (ix2 r c)) (Ideal.ofBits .f32 0x00000000#32) (k0_pay4 x0 x1 (ix2 r c)) = _
    rw [bit_apply, score_apply, ofBits_zero]
  · refine Finset.sum_congr rfl fun c _ => congrArg₂ (· * ·) ?_ (value_apply x2 c e)
    show indicator (k0_pay3 x3 (ix2 r c)) = _
    rw [bit_apply]

end Cert.Attention.Block

end
-- ==== Proof.ArrayValue.lean ====
/-
  From blocks to arrays. The grid has one point per batch b, head h and block of 512 query rows; at a point the
  kernel loads that block of queries, all keys and values of (b, h), and the block of mask rows of b, and writes back
  one [512, 64] block of the first result and one [512, 2048] block of the second. Each block it writes is the
  corresponding block of the attention of Proof/Spec.lean of the whole argument arrays (for the first result this is
  where the values being real numbers is used), and the blocks tile both results: so after the run the two result
  arrays are that attention.
-/
import proofs.«127966_j75771813036480_2_alg».proof.Proof.Gen.KernelIdeal.Value
import Idealize.ShloMosaic.Lib.Pipeline.Value
import Idealize.ShloMosaic.Lib.StableHlo.Run
import proofs.«127966_j75771813036480_2_alg».proof.Proof.BlockValue
import proofs.«127966_j75771813036480_2_alg».proof.Proof.Spec

set_option maxRecDepth 16384

noncomputable section

namespace Cert.Attention.Kernel

open Cert.KernelIdeal Cert.KernelIdeal.Gen Cert.Attention Cert.Attention.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The grid point's batch, head and rows -/

/-- The printed index maps, decided over the 128 grid points: the first result's block index is (b, h, block of rows,
    0) within the array's blocks; the queries' and the second result's move with it; the keys' and values' are
    (b, h, 0, 0); the mask's is (b, block of rows, 0). -/
theorem idx_facts : ∀ t : Fin cfg0.N,
    win0_4.index t (0 : Fin 4) ≤ 1 ∧ win0_4.index t (1 : Fin 4) ≤ 15 ∧ win0_4.index t (2 : Fin 4) ≤ 3
    ∧ win0_4.index t (3 : Fin 4) = 0
    ∧ win0_0.index t (0 : Fin 4) = win0_4.index t (0 : Fin 4) ∧ win0_0.index t (1 : Fin 4) = win0_4.index t (1 : Fin 4)
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 3) = win0_4.index t (0 : Fin 4) ∧ win0_3.index t (1 : Fin 3) = win0_4.index t (2 : Fin 4)
    ∧ win0_3.index t (2 : Fin 3) = 0
    ∧ win0_5.index t (0 : Fin 4) = win0_4.index t (0 : Fin 4) ∧ win0_5.index t (1 : Fin 4) = win0_4.index t (1 : Fin 4)
    ∧ win0_5.index t (2 : Fin 4) = win0_4.index t (2 : Fin 4) ∧ win0_5.index t (3 : Fin 4) = 0 :=
  (by decide +kernel : ∀ t : Fin grid0.N, _)

/-- Every (batch, head, block of rows) is some grid point's. -/
theorem idx_onto : ∀ (q0 : Fin 2) (q1 : Fin 16) (q2 : Fin 4), ∃ t : Fin cfg0.N,
    win0_4.index t = ![q0.val, q1.val, q2.val, 0] :=
  (by decide +kernel : ∀ (q0 : Fin 2) (q1 : Fin 16) (q2 : Fin 4), ∃ t : Fin grid0.N, win0_4.index t = ![q0.val, q1.val, q2.val, 0])

/-- The batch of grid point `t`. -/
def bOf (t : Fin cfg0.N) : Fin 2 := ⟨win0_4.index t (0 : Fin 4), by have := (idx_facts t).1; omega⟩
/-- The head of grid point `t`. -/
def hOf (t : Fin cfg0.N) : Fin 16 := ⟨win0_4.index t (1 : Fin 4), by have := (idx_facts t).2.1; omega⟩
/-- Row `r` of grid point `t`'s block of query rows, among all rows. -/
def rowOf (t : Fin cfg0.N) (r : Fin 512) : Fin 2048 :=
  ⟨win0_4.index t (2 : Fin 4) * 512 + r.val, by have := (idx_facts t).2.2.1; have := r.isLt; omega⟩

/-! ## The blocks read off the arrays -/

/-- The mask words the region finds: the mask bits widened. -/
theorem V_mask (c : Dev nD) :
    (V m c main_v0 : S2x2048x2048.Idx → BitVec 32) = extui 32 (m ((c : Thread nD τ).loc main_arg3)) natLt_1_32 := by
  dsimp only [Gen.V, Gen.hostOps0]; after_results <;> rfl

theorem readQ (c : Dev nD) (t : Fin cfg0.N) (r : Fin 512) (e : Fin 64) :
    iblk m c 0 t (ix4 0 0 r e) = m ((c : Thread nD τ).loc main_arg0) (ix4 (bOf t) (hOf t) (rowOf t r) e) := by
  show V m c main_arg0 (((cfg0.win 0).blk t).view.emb (ix4 0 0 r e)) = _
  rw [V_main_arg0]
  obtain ⟨-, -, -, -, e0, e1, e2, e3, -⟩ := idx_facts t
  refine congrArg _ (funext fun a => Fin.ext ?_)
  match a with
  | ⟨0, _⟩ => show win0_0.index t (0 : Fin 4) * 1 + 1 * 0 = win0_4.index t (0 : Fin 4); omega
  | ⟨1, _⟩ => show win0_0.index t (1 : Fin 4) * 1 + 1 * 0 = win0_4.index t (1 : Fin 4); omega
  | ⟨2, _⟩ => show win0_0.index t (2 : Fin 4) * 512 + 1 * r.val = win0_4.index t (2 : Fin 4) * 512 + r.val; omega
  | ⟨3, _⟩ => show win0_0.index t (3 : Fin 4) * 64 + 1 * e.val = e.val; omega

theorem readK (c : Dev nD) (t : Fin cfg0.N) (c' : Fin 2048) (e : Fin 64) :
    iblk m c 1 t (ix4 0 0 c' e) = m ((c : Thread nD τ).loc main_arg1) (ix4 (bOf t) (hOf t) c' e) := by
  show V m c main_arg1 (((cfg0.win 1).blk t).view.emb (ix4 0 0 c' e)) = _
  rw [V_main_arg1]
  obtain ⟨-, -, -, -, -, -, -, -, e0, e1, e2, e3, -⟩ := idx_facts t
  refine congrArg _ (funext fun a => Fin.ext ?_)
  match a with
  | ⟨0, _⟩ => show win0_1.index t (0 : Fin 4) * 1 + 1 * 0 = win0_4.index t (0 : Fin 4); omega
  | ⟨1, _⟩ => show win0_1.index t (1 : Fin 4) * 1 + 1 * 0 = win0_4.index t (1 : Fin 4); omega
  | ⟨2, _⟩ => show win0_1.index t (2 : Fin 4) * 2048 + 1 * c'.val = c'.val; omega
  | ⟨3, _⟩ => show win0_1.index t (3 : Fin 4) * 64 + 1 * e.val = e.val; omega

theorem readV (c : Dev nD) (t : Fin cfg0.N) (c' : Fin 2048) (e : Fin 64) :
    iblk m c 2 t (ix4 0 0 c' e) = m ((c : Thread nD τ).loc main_arg2) (ix4 (bOf t) (hOf t) c' e) := by
  show V m c main_arg2 (((cfg0.win 2).blk t).view.emb (ix4 0 0 c' e)) = _
  rw [V_main_arg2]
  obtain ⟨-, -, -, -, -, -, -, -, -, -, -, -, e0, e1, e2, e3, -⟩ := idx_facts t
  refine congrArg _ (funext fun a => Fin.ext ?_)
  match a with
  | ⟨0, _⟩ => show win0_2.index t (0 : Fin 4) * 1 + 1 * 0 = win0_4.index t (0 : Fin 4); omega
  | ⟨1, _⟩ => show win0_2.index t (1 : Fin 4) * 1 + 1 * 0 = win0_4.index t (1 : Fin 4); omega
  | ⟨2, _⟩ => show win0_2.index t (2 : Fin 4) * 2048 + 1 * c'.val = c'.val; omega
  | ⟨3, _⟩ => show win0_2.index t (3 : Fin 4) * 64 + 1 * e.val = e.val; omega

theorem readM (c : Dev nD) (t : Fin cfg0.N) (r : Fin 512) (c' : Fin 2048) :
    iblk m c 3 t (ix3 0 r c')
      = (m ((c : Thread nD τ).loc main_arg3) (ix3 (bOf t) (rowOf t r) c')).setWidth 32 := by
  show V m c main_v0 (((cfg0.win 3).blk t).view.emb (ix3 0 r c')) = _
  rw [V_mask]
  obtain ⟨-, -, -, -, -, -, -, -, -, -, -, -, -, -, -, -, e0, e1, e2, -⟩ := idx_facts t
  show (m ((c : Thread nD τ).loc main_arg3) (((cfg0.win 3).blk t).view.emb (ix3 0 r c'))).setWidth 32 = _
  refine congrArg (fun i => (m ((c : Thread nD τ).loc main_arg3) i).setWidth 32) (funext fun a => Fin.ext ?_)
  match a with
  | ⟨0, _⟩ => show win0_3.index t (0 : Fin 3) * 1 + 1 * 0 = win0_4.index t (0 : Fin 4); omega
  | ⟨1, _⟩ => show win0_3.index t (1 : Fin 3) * 512 + 1 * r.val = win0_4.index t (2 : Fin 4) * 512 + r.val; omega
  | ⟨2, _⟩ => show win0_3.index t (2 : Fin 3) * 2048 + 1 * c'.val = c'.val; omega

/-- Where the first result's block element `(r, e)` of point `t` sits in the array. -/
theorem emb4 (t : Fin cfg0.N) (r : Fin 512) (e : Fin 64) :
    ((cfg0.win 4).blk t).view.emb (ix4 0 0 r e) = ix4 (bOf t) (hOf t) (rowOf t r) e := by
  obtain ⟨-, -, -, e3, -⟩ := idx_facts t
  refine funext fun a => Fin.ext ?_
  match a with
  | ⟨0, _⟩ => show win0_4.index t (0 : Fin 4) * 1 + 1 * 0 = win0_4.index t (0 : Fin 4); omega
  | ⟨1, _⟩ => show win0_4.index t (1 : Fin 4) * 1 + 1 * 0 = win0_4.index t (1 : Fin 4); omega
  | ⟨2, _⟩ => show win0_4.index t (2 : Fin 4) * 512 + 1 * r.val = win0_4.index t (2 : Fin 4) * 512 + r.val; omega
  | ⟨3, _⟩ => show win0_4.index t (3 : Fin 4) * 64 + 1 * e.val = e.val; omega

/-- Where the second result's block element `(r, c')` of point `t` sits in the array. -/
theorem emb5 (t : Fin cfg0.N) (r : Fin 512) (c' : Fin 2048) :
    ((cfg0.win 5).blk t).view.emb (ix4 0 0 r c') = ix4 (bOf t) (hOf t) (rowOf t r) c' := by
  obtain ⟨-, -, -, -, -, -, -, -, -, -, -, -, -, -, -, -, -, -, -, e0, e1, e2, e3⟩ := idx_facts t
  refine funext fun a => Fin.ext ?_
  match a with
  | ⟨0, _⟩ => show win0_5.index t (0 : Fin 4) * 1 + 1 * 0 = win0_4.index t (0 : Fin 4); omega
  | ⟨1, _⟩ => show win0_5.index t (1 : Fin 4) * 1 + 1 * 0 = win0_4.index t (1 : Fin 4); omega
  | ⟨2, _⟩ => show win0_5.index t (2 : Fin 4) * 512 + 1 * r.val = win0_4.index t (2 : Fin 4) * 512 + r.val; omega
  | ⟨3, _⟩ => show win0_5.index t (3 : Fin 4) * 2048 + 1 * c'.val = c'.val; omega

/-- THE MASKED ROW of a block is the masked row of the arrays: block row `r` of point `t` is row `rowOf t r` of
    batch `bOf t` and head `hOf t`. -/
theorem masked_block (c : Dev nD) (t : Fin cfg0.N) (r : Fin 512) :
    maskedRow (blockBit (iblk m c 3 t) r) (blockScore (iblk m c 0 t) (iblk m c 1 t) r)
      = maskedScore (m ((c : Thread nD τ).loc main_arg0)) (m ((c : Thread nD τ).loc main_arg1))
          (m ((c : Thread nD τ).loc main_arg3)) (bOf t) (hOf t) (rowOf t r) := by
  funext c'
  unfold maskedScore maskedRow blockBit blockScore score
  simp only [readQ, readK, readM, cmpi_ne_zero_setWidth]

/-! ## What a point writes back -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- An index of a block with two unit leading axes is its last two coordinates. -/
theorem unit4 (y : S1x1x512x64.Idx) : y = ix4 0 0 (y 2) (y 3) :=
  funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl
    | ⟨3, _⟩ => rfl)

theorem unit5 (y : S1x1x512x2048.Idx) : y = ix4 0 0 (y 2) (y 3) :=
  funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl
    | ⟨3, _⟩ => rfl)

/-- WHAT POINT `t` WRITES BACK to the first result is block `t` of the masked scores' product with the values —
    the kernel's split of that product by the mask put back together, the values being real. -/
theorem flushed4_eq (c : Dev nD) (hv : ∀ i, ∃ x : ℝ, (m ((c : Thread nD τ).loc main_arg2) : S2x16x2048x64.Idx → EReal) i = (x : EReal)) (t : Fin cfg0.N) :
    (dats m 0 c).flushed 4 t = ((cfg0.win 4).blk t).view.read (Elt Ideal)
      (output (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero hz4]
  simp only [View.ld_unit_zero (S := S1x1x512x64) hz4, View.ld_unit_zero (S := S1x1x2048x64) hz4,
    View.ld_unit_zero (S := S1x512x2048) hz3]
  funext y
  obtain ⟨r, e, rfl⟩ : ∃ (r : Fin 512) (e : Fin 64), y = ix4 0 0 r e := ⟨y 2, y 3, unit4 y⟩
  show k0_pay1 (k0_pay2 (iblk m c 2 t)) (k0_pay3 (iblk m c 3 t)) (k0_pay4 (iblk m c 0 t) (iblk m c 1 t)) (k0_pay6 (F := Ideal)) (ix4 0 0 r e)
      = output _ _ _ _ (((cfg0.win 4).blk t).view.emb (ix4 0 0 r e))
  rw [emb4]
  refine (output_apply (iblk m c 0 t) (iblk m c 1 t) (iblk m c 2 t) (iblk m c 3 t) r e).trans ?_
  refine (value_split (blockBit (iblk m c 3 t) r) (blockScore (iblk m c 0 t) (iblk m c 1 t) r)
    (fun c' => iblk m c 2 t (ix4 0 0 c' e)) (fun c' => ?_)).trans ?_
  · rw [readV]; exact hv _
  · rw [masked_block]
    unfold output
    exact Finset.sum_congr rfl fun c' _ => congrArg₂ (· * ·) rfl (readV m c t c' e)

/-- WHAT POINT `t` WRITES BACK to the second result is block `t` of the attention weights. -/
theorem flushed5_eq (c : Dev nD) (t : Fin cfg0.N) :
    (dats m 0 c).flushed 5 t = ((cfg0.win 5).blk t).view.read (Elt Ideal)
      (attention (m ((c : Thread nD τ).loc main_arg0)) (m ((c : Thread nD τ).loc main_arg1))
        (m ((c : Thread nD τ).loc main_arg3))) := by
  rw [Cert.KernelIdeal.Value.flushed5]
  unfold out0_5
  rw [View.canon_unit_zero hz4]
  simp only [View.ld_unit_zero (S := S1x1x512x64) hz4, View.ld_unit_zero (S := S1x1x2048x64) hz4,
    View.ld_unit_zero (S := S1x512x2048) hz3]
  funext y
  obtain ⟨r, c', rfl⟩ : ∃ (r : Fin 512) (c' : Fin 2048), y = ix4 0 0 r c' := ⟨y 2, y 3, unit5 y⟩
  show k0_pay5 (iblk m c 0 t) (iblk m c 1 t) (iblk m c 3 t) (ix4 0 0 r c')
      = attention _ _ _ (((cfg0.win 5).blk t).view.emb (ix4 0 0 r c'))
  rw [emb5]
  refine (attention_apply (iblk m c 0 t) (iblk m c 1 t) (iblk m c 3 t) r c').trans ?_
  rw [masked_block]
  rfl

/-! ## The blocks tile the arrays -/

theorem mem_blk4 (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v1_0).slice (win0_4.rect t)).set ↔ _
  rw [View.set_slice_whole, Rect.mem_set_unit]
  exact Iff.rfl

theorem mem_blk5 (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

/-- Every index of the first result is in the block of the point of its batch, head and block of rows. -/
theorem cover4 (i : S2x16x2048x64.Idx) :
    ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := idx_onto ⟨(i 0).val, h0⟩ ⟨(i 1).val, h1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- Every index of the second result likewise. -/
theorem cover5 (i : S2x16x2048x2048.Idx) :
    ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, ht⟩ := idx_onto ⟨(i 0).val, h0⟩ ⟨(i 1).val, h1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  obtain ⟨-, -, -, -, -, -, -, -, -, -, -, -, -, -, -, -, -, -, -, e0, e1, e2, e3⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-! ## The arrays after the run -/

/-- THE FIRST RESULT after the run is the masked scores' product with the values. -/
theorem final4 (c : Dev nD) (hv : ∀ i, ∃ x : ℝ, (m ((c : Thread nD τ).loc main_arg2) : S2x16x2048x64.Idx → EReal) i = (x : EReal)) :
    (dats m 0 c).arrAt 4 cfg0.N
      = output (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed4_eq m c hv t) cover4

/-- THE SECOND RESULT after the run is the attention weights. -/
theorem final5 (c : Dev nD) :
    (dats m 0 c).arrAt 5 cfg0.N
      = attention (m ((c : Thread nD τ).loc main_arg0)) (m ((c : Thread nD τ).loc main_arg1))
          (m ((c : Thread nD τ).loc main_arg3)) :=
  (dats m 0 c).arrAt_eq_of_cover 5 _ (fun t _ => flushed5_eq m c t) cover5

/-- THE KERNEL'S RUN, READ: from a memory whose values are real numbers, every weakly fair execution ends with the two
    results at the attention of the argument arrays, the arguments unchanged. -/
theorem run (hv : ∀ (c : Dev nD) i, ∃ x : ℝ, (m ((c : Thread nD τ).loc main_arg2) : S2x16x2048x64.Idx → EReal) i = (x : EReal)) :
    θ_run defs (onTc (τ := τ) (main (F := Ideal))) ⟨m, fun _ => 0, ρ⟩ fun r => ∀ c : Dev nD,
      r.2.mem ((c : Thread nD τ).loc main_v1_0)
        = output (m ((c : Thread nD τ).loc main_arg0)) (m ((c : Thread nD τ).loc main_arg1))
            (m ((c : Thread nD τ).loc main_arg2)) (m ((c : Thread nD τ).loc main_arg3))
      ∧ r.2.mem ((c : Thread nD τ).loc main_v1_1)
        = attention (m ((c : Thread nD τ).loc main_arg0)) (m ((c : Thread nD τ).loc main_arg1))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (hv c)), (h c).2.1.trans (final5 m c), (h c).2.2⟩)
    (Cert.KernelIdeal.Value.run_blocks m ρ)

end Cert.Attention.Kernel

end
-- ==== Proof.Finite.lean ====
/-
  The precondition read back: it is the conjunction, over the three float arguments, of "every element's absolute
  value is below +inf", each a reduction by `and` over the whole array. An extended real whose absolute value is below
  +inf is neither infinity, so it is a real number: every entry of the queries, the keys and the values is real.
-/
import proofs.«127966_j75771813036480_2_alg».proof.Pre_finite_inputs
import Idealize.ShloMosaic.Lib.ReduceAll
import Idealize.ShloMosaic.Lib.ValueIdx
import Idealize.ShloMosaic.PureOps.Ideal

noncomputable section

namespace Cert.Attention.Finite

open Idealize.ShloMosaic Cert.Pre_finite_inputs

/-- The pattern of `+inf` denotes the top of the extended reals. -/
theorem ofBits_inf : Ideal.ofBits .f32 0x7F800000#32 = ⊤ := by
  simp [Ideal.ofBits, Ideal.ieee]

/-- An extended real whose absolute value is below `+inf` is a real number. -/
theorem real_of_abs_lt_top (x : EReal) (h : Ideal.cmp .olt (max x (-x)) ⊤ = 1#1) : ∃ r : ℝ, x = r := by
  induction x using EReal.rec with
  | bot => exfalso; simp [Ideal.cmp] at h
  | top => exfalso; simp [Ideal.cmp] at h
  | coe r => exact ⟨r, rfl⟩

instance : Subsingleton S_.Idx := ⟨fun a b => funext fun d => d.elim0⟩

variable [Cert.Pre_finite_inputs.Facts]

/-- One conjunct of the precondition: the array's entries are real numbers. -/
theorem all_real (x : FVec Ideal S2x16x2048x64 .f32)
    (h : Host.reduce IntOp.andi
        (cmpf .olt (Host.absf x)
          (broadcastInDim S2x16x2048x64 ![] Facts.bcast_S_S2x16x2048x64 (constant (F := Ideal) S_ .f32 0x7F800000#32)))
        (constantI S_ 1 1#1) Facts.reducesTo_S2x16x2048x64_S_d0_1_2_3 Facts.h_S_ ValueIdx.ix0 = 1#1)
    (i : S2x16x2048x64.Idx) : ∃ r : ℝ, x i = r := by
  have e := Host.reduce_andi_all _ _ _ _ _ h i
  refine real_of_abs_lt_top (x i) ?_
  rw [← ofBits_inf]
  exact e

/-- THE PRECONDITION gives: every entry of the three float arguments is a real number. -/
theorem finite_of_pre (q k v : FVec Ideal S2x16x2048x64 .f32) (msk : IVec S2x2048x2048 1)
    (h : fn (F := Ideal) q k v msk = fun _ => 1#1) :
    (∀ i, ∃ r : ℝ, q i = r) ∧ (∀ i, ∃ r : ℝ, k i = r) ∧ (∀ i, ∃ r : ℝ, v i = r) := by
  have h0 := congrFun h ValueIdx.ix0
  dsimp only [fn] at h0
  obtain ⟨h01, h2⟩ := IntOp.andi_eq_one.1 (show IntOp.andi _ _ = 1#1 from h0)
  obtain ⟨hq, hk⟩ := IntOp.andi_eq_one.1 (show IntOp.andi _ _ = 1#1 from h01)
  exact ⟨all_real q hq, all_real k hk, all_real v h2⟩

end Cert.Attention.Finite

end
-- ==== Proof.lean ====
/-
  Masked scaled dot-product attention: the kernel against its reference, over the extended reals.

  Both programs compute, for each batch b, head h and query row r, the scores of that row against every key row
  (inner product over the 64 features, times 1/8 in the kernel, divided by 8 in the reference: one function on
  every extended real), replace the score by -10^9 where the mask is set, and return (1) the product of that masked
  row with the values and (2) its softmax along the keys.

  The second result is the same expression on both sides once read at an index: a matrix product into a zero
  accumulator and the host's dot product are the same sum, the row maximum is a fold of max from -inf on both sides
  (the reference takes the maximum with -inf once more, which changes nothing), the row sum starts from zero on the
  host, and the quotients agree.

  The first result differs in arrangement: the kernel multiplies the values by the scores with ZERO where masked, and
  adds -10^9 times the product of the values with the mask read as the numbers 0 and 1. Term by term the two
  arrangements agree on all extended reals; moving the factor -10^9 inside the mask's sum is the distributive law, which
  holds because the values are real numbers — this is where the precondition (every float input finite) is used.

  The kernel works on a grid of 2 x 16 x 4 points, one per batch, head and block of 512 query rows; each point writes
  one block of each result, and the blocks tile the results (Proof/ArrayValue.lean). The reference's operations are
  read one at a time in Proof/RefValue.lean; the kernel's body at one point in Proof/BlockValue.lean; the row-level
  laws and the constants are in Proof/LibMaskedRow.lean, the precondition in Proof/Finite.lean.
  No operation of the kernel was rewritten by the idealization, so that conjunct is trivial.
-/
import proofs.«127966_j75771813036480_2_alg».proof.Defs
import proofs.«127966_j75771813036480_2_alg».proof.Proof.Gen.Kernel
import proofs.«127966_j75771813036480_2_alg».proof.Proof.Gen.Kernel.Skeleton
import proofs.«127966_j75771813036480_2_alg».proof.Proof.Gen.Kernel.Launch
import proofs.«127966_j75771813036480_2_alg».proof.Proof.Gen.Kernel.Points
import proofs.«127966_j75771813036480_2_alg».proof.Proof.Gen.Kernel.Frame
import proofs.«127966_j75771813036480_2_alg».proof.Proof.Gen.KernelIdeal
import proofs.«127966_j75771813036480_2_alg».proof.Proof.Gen.KernelIdeal.Skeleton
import proofs.«127966_j75771813036480_2_alg».proof.Proof.Gen.KernelIdeal.Launch
import proofs.«127966_j75771813036480_2_alg».proof.Proof.Gen.KernelIdeal.Points
import proofs.«127966_j75771813036480_2_alg».proof.Proof.Gen.KernelIdeal.Frame
import proofs.«127966_j75771813036480_2_alg».proof.Proof.Gen.ReferenceIdeal
import proofs.«127966_j75771813036480_2_alg».proof.Proof.Gen.Pre_finite_inputs
import proofs.«127966_j75771813036480_2_alg».proof.Proof.Gen.KernelIdeal.Value
import proofs.«127966_j75771813036480_2_alg».proof.Proof.Gen.ReferenceIdeal.Run
import proofs.«127966_j75771813036480_2_alg».proof.Proof.Gen.ReferenceIdeal.Read
import proofs.«127966_j75771813036480_2_alg».proof.Proof.RefValue
import proofs.«127966_j75771813036480_2_alg».proof.Proof.ArrayValue
import proofs.«127966_j75771813036480_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs, from memories that agree on the arguments and hold real numbers in the float ones, end with the
    masked scores' product with the values and the softmax of the masked scores, of the same arguments. -/
theorem algebraic : Cert.algebraic_KernelIdeal_ReferenceIdeal := by
  intro m ρ m' ρ' hpre hagree
  have hfin := fun c : Dev Cert.KernelIdeal.nD => Cert.Attention.Finite.finite_of_pre _ _ _ _ (hpre c)
  refine ⟨_, _, Cert.Attention.Kernel.run m ρ (fun c => (hfin c).2.2), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v16_eq, Cert.Attention.Reference.output_eq, (hagree c).1, (hagree c).2.1,
      (hagree c).2.2.1, (hagree c).2.2.2]
  · rw [Cert.ReferenceIdeal.Read.val_main_v15_eq, Cert.Attention.Reference.attention_eq, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
